-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x4096 : Shape := ⟨2, ![4096, 4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x1024x4096 .f32) (main_arg1 : FVec F S4096x4096 .f32) (main_arg2 : FVec F S4096x4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8x1024x4096 : Shape := ⟨3, ![8, 1024, 4096]⟩
abbrev S4096x4096 : Shape := ⟨2, ![4096, 4096]⟩
abbrev S8192x4096 : Shape := ⟨2, ![8192, 4096]⟩
abbrev S1024x512 : Shape := ⟨2, ![1024, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .hbm, ⟨4, _⟩ => ⟨S8192x4096, .f32⟩
  | .hbm, ⟨5, _⟩ => ⟨S8x1024x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x1024x4096_S8192x4096 : S8x1024x4096.ShapeCasts S8192x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  natLt_1_32 : 1 < 32
  bitsLt_bf16_f32 : FTy.bits .bf16 < FTy.bits .f32
  shapeCasts_S8192x4096_S8x1024x4096 : S8192x4096.ShapeCasts S8x1024x4096
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8x1024x4096_S4096x4096_S8x1024x4096_2_1_01_0_n_n_wf : DotDims.WF S8x1024x4096 S4096x4096 S8x1024x4096 [2] [1] [0, 1] [0] [] []

variable [Facts₀]

def dot_S8x1024x4096_S4096x4096_S8x1024x4096_2_1_01_0_n_n : DotDims S8x1024x4096 S4096x4096 S8x1024x4096 where
  lhsContracting := [2]
  rhsContracting := [1]
  lhsNonContracting := [0, 1]
  rhsNonContracting := [0]
  lhsBatch := []
  rhsBatch := []
  wf := dot_S8x1024x4096_S4096x4096_S8x1024x4096_2_1_01_0_n_n_wf

class Facts : Prop extends Facts₀ where

variable [Facts]
-- ==== Proof.Pieces.lean ====
/-
  What one grid point's body leaves behind, as values.

  The body keeps a running block `acc` of the product in a scratch buffer.  At every point it overwrites the scratch
  with  acc + x ·ᵀ wq  (the payload `k0_pay2` of the weight blocks, the activation block and the old scratch);
  at the first point of a contraction it first resets the scratch to the zero block (`k0_pay1`), and at the last
  point it also copies the new scratch into the output block.  So in each of the three control cases the scratch
  ends at the payload of what it held before (or of the zero block), and in the last case so does the output.
-/
import proofs.«160060_j44719199486507_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The first point of a contraction: the scratch is reset to the zero block, then ends at the payload of that. -/
theorem scratch_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S512x512 .f32) (x2 : Vec F S512x512 .f32) :
    sout0_A_0 c i arg3 harg3 arg4 harg4 arg5 harg5 arg6 harg6 arg7 harg7 hc0 hc1 x0 x1 x2 = k0_pay2 x1 x2 x0 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg7.read_unread,
    View.ld_unit_zero (S := S1024x512) hz, View.ld_unit_zero (S := S512x512) hz]

/-- A middle point of a contraction: the scratch ends at the payload of its old contents. -/
theorem scratch_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S512x512 .f32) (x2 : Vec F S512x512 .f32) (xs0 : Vec F S1024x512 .f32) :
    sout0_B_0 c i arg3 harg3 arg4 harg4 arg5 harg5 arg6 harg6 arg7 harg7 hc0 hc1 x0 x1 x2 xs0 = k0_pay2 x1 x2 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg7.read_unread,
    View.ld_unit_zero (S := S1024x512) hz, View.ld_unit_zero (S := S512x512) hz]

/-- The last point of a contraction: the scratch ends at the payload of its old contents, -/
theorem scratch_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S512x512 .f32) (xs0 : Vec F S1024x512 .f32) :
    sout0_C_0 c i arg3 harg3 arg4 harg4 arg5 harg5 arg6 harg6 arg7 harg7 hc0 hc1 x0 x1 x2 xs0 = k0_pay2 x1 x2 x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S512x512) hz]

/-- and the output block is a copy of it. -/
theorem out_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S512x512 .f32) (x2 : Vec F S512x512 .f32) (xs0 : Vec F S1024x512 .f32) :
    out0_C_3 c i arg3 harg3 arg4 harg4 arg5 harg5 arg6 harg6 arg7 harg7 hc0 hc1 x0 x1 x2 xs0 = k0_pay2 x1 x2 x0 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x512) _ hz]
  simp only [View.readAt_eq_ld, harg3.read_unread, harg4.read_unread, harg5.read_unread, harg7.read_unread,
    View.ld_unit_zero (S := S1024x512) hz, View.ld_unit_zero (S := S512x512) hz]

end Cert.KernelIdeal.Pieces

end
-- ==== Proof.Spec.lean ====
/-
  The mathematics of the sign-quantized linear layer, with no program in sight.

  A weight pair (a, b) is quantized to  wq a b = [a > 0] - [b ≤ 0]  (a real in {-1, 0, 1}).  The layer's entry
  (r, c) is the sum over k of  X(r, k) * wq(WP(c, k), WN(c, k)).  Three facts are proved here:
    * the straight-through form  w + ([w > 0] - w)  of a REAL weight w is [w > 0], likewise for the negated one,
      and a REAL activation distributes over the two quantized weights (the one place finiteness is used);
    * hence the two full contractions added give the one contraction against wq (`two_sums`);
    * a sum over 4096 = 8 * 512 terms is the sum of its eight consecutive blocks of 512 (`sum_blocks`),
      so accumulating block after block from zero reaches the full contraction.
  Matrices are read at natural-number positions (zero outside), so no index arithmetic lives in a type.
-/
import Idealize.ShloMosaic.PureOps.Ideal.Laws
import Idealize.ShloMosaic.Lib.ValueIdx

noncomputable section

namespace Cert.PLinear

open Idealize.ShloMosaic Idealize.ShloMosaic.ValueIdx

/-- A one-bit word as the real 0 or 1. -/
def bit (b : BitVec 1) : ℝ := (b.toNat : ℝ)

/-- The float zero both programs compare against. -/
abbrev fzero : EReal := Ideal.ofBits .f32 0x00000000#32

/-- The quantized weight of a pair: [a > 0] - [b ≤ 0]. -/
def wq (a b : EReal) : ℝ := bit (Ideal.cmp .ogt a fzero) - bit (Ideal.cmp .ole b fzero)

/-- A one-bit word widened to 32 bits and read as a signed integer is the bit. -/
theorem toInt_setWidth_bit (b : BitVec 1) : (((b.setWidth 32).toInt : ℝ) : EReal) = ((bit b : ℝ) : EReal) := by
  by_cases h : b = 1#1
  · subst h; simp [bit]
  · have h0 := eq_zero_of_ne_one h; subst h0; simp [bit]

/-- A one-bit word read as an unsigned integer is the bit. -/
theorem toNat_bit (b : BitVec 1) : (((b.toNat : ℝ)) : EReal) = ((bit b : ℝ) : EReal) := rfl

/-- A matrix read at a natural-number position: zero outside. -/
def at2 {R C : ℕ} (A : (⟨2, ![R, C]⟩ : Shape).Idx → EReal) (r c : ℕ) : EReal :=
  if h : r < R ∧ c < C then A (ix2 ⟨r, h.1⟩ ⟨c, h.2⟩) else 0

theorem at2_val {R C : ℕ} (A : (⟨2, ![R, C]⟩ : Shape).Idx → EReal) (p : Fin R) (q : Fin C) :
    at2 A p.val q.val = A (ix2 p q) := by
  unfold at2; rw [dif_pos ⟨p.isLt, q.isLt⟩]

theorem at2_of_lt {R C : ℕ} (A : (⟨2, ![R, C]⟩ : Shape).Idx → EReal) (r c : ℕ) (hr : r < R) (hc : c < C) :
    at2 A r c = A (ix2 ⟨r, hr⟩ ⟨c, hc⟩) := by
  unfold at2; rw [dif_pos ⟨hr, hc⟩]

/-- One term of the layer's contraction at row r, column c, position k. -/
def term {M N K : ℕ} (X : (⟨2, ![M, K]⟩ : Shape).Idx → EReal) (WP WN : (⟨2, ![N, K]⟩ : Shape).Idx → EReal)
    (r c k : ℕ) : EReal :=
  at2 X r k * ((wq (at2 WP c k) (at2 WN c k) : ℝ) : EReal)

/-- For a real weight w the straight-through form w + (v - w) is v. -/
theorem ste (w v : ℝ) : (w : EReal) + ((v : EReal) - (w : EReal)) = (v : EReal) := by
  rw [← EReal.coe_sub, ← EReal.coe_add]; congr 1; ring

/-- A real activation times the two straight-through weights, added, is the activation times the quantized weight. -/
theorem term_law (x w1 w2 : ℝ) (a b : BitVec 1) :
    (x : EReal) * ((w1 : EReal) + (((bit a : ℝ) : EReal) - (w1 : EReal)))
      + (x : EReal) * ((w2 : EReal) + (-((bit b : ℝ) : EReal) - (w2 : EReal)))
      = (x : EReal) * ((bit a - bit b : ℝ) : EReal) := by
  rw [ste, ← EReal.coe_neg, ste, ← EReal.coe_mul, ← EReal.coe_mul, ← EReal.coe_mul, ← EReal.coe_add]
  congr 1; ring

/-- A sum of a * b terms is the sum of its a consecutive blocks of b. -/
theorem sum_blocks {M : Type*} [AddCommMonoid M] (f : ℕ → M) (a b : ℕ) :
    ∑ k ∈ Finset.range (a * b), f k = ∑ i ∈ Finset.range a, ∑ j ∈ Finset.range b, f (i * b + j) := by
  induction a with
  | zero => simp
  | succ a ih => rw [Nat.succ_mul, Finset.sum_range_add, ih, Finset.sum_range_succ]

end Cert.PLinear

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Payload.lean ====
/-
  The body's arithmetic at one entry.

  With activation block x (1024 x 512), weight blocks wp, wn (512 x 512) and the running block acc (1024 x 512),
  the value the body stores is, at entry (p, q),
      acc(p, q) + sum over k < 512 of  x(p, k) * wq(wp(q, k), wn(q, k)),
  where wq a b = [a > 0] - [b ≤ 0]: the two comparisons widened and converted are the 0/1 reals, their
  difference the quantized weight, the narrowing to bf16 is the identity on exact values, and the matrix unit
  contracts the second axis of both operands into a zero accumulator.
-/
import proofs.«160060_j44719199486507_1_alg».proof.Proof.Gen.KernelIdeal.Skeleton
import proofs.«160060_j44719199486507_1_alg».proof.Proof.Spec
import proofs.«160060_j44719199486507_1_alg».proof.Proof.LibMatmul
import Idealize.ShloMosaic.Lib.Pipeline.Value

noncomputable section

namespace Cert.KernelIdeal.Payload

open Idealize.ShloMosaic Idealize.ShloMosaic.ValueIdx
open Cert.KernelIdeal Cert.KernelIdeal.Gen Cert.PLinear

/-- The zero block the reset stores is zero at every entry. -/
theorem pay1_apply (j : S1024x512.Idx) : k0_pay1 (F := Ideal) j = 0 := by
  unfold k0_pay1
  simp only [shapeCast_self]
  exact Ideal.ofBits_zero_f32

/-- The stored block at entry (p, q). -/
theorem pay2_apply (x1 x2 : Vec Ideal S512x512 .f32) (x0 acc : Vec Ideal S1024x512 .f32) (p : Fin 1024) (q : Fin 512) :
    k0_pay2 (F := Ideal) x1 x2 x0 acc (ix2 p q)
      = acc (ix2 p q) + ∑ k : Fin 512, x0 (ix2 p k) * ((wq (x1 (ix2 q k)) (x2 (ix2 q k)) : ℝ) : EReal) := by
  unfold k0_pay2
  simp only [shapeCast_self]
  rw [addf_apply]
  refine congrArg (acc (ix2 p q) + ·) ?_
  refine (Cert.MatmulAt.matmul_zero_nt_apply (M := 1024) (K := 512) (N := 512)
    Cert.KernelIdeal.Facts₀.dot_S1024x512_S512x512_S1024x512_1_1_0_0_n_n_wf none _ _ p q).trans ?_
  refine Finset.sum_congr rfl fun k _ => ?_
  rw [truncf_apply, subf_apply, truncf_apply, truncf_apply, sitofp_apply, sitofp_apply, extui_apply, extui_apply,
    cmpf_apply, cmpf_apply, broadcast_apply]
  show x0 (ix2 p k) * (((((Ideal.cmp .ogt (x1 (ix2 q k)) fzero).setWidth 32).toInt : ℝ) : EReal)
      - ((((Ideal.cmp .ole (x2 (ix2 q k)) fzero).setWidth 32).toInt : ℝ) : EReal)) = _
  rw [toInt_setWidth_bit, toInt_setWidth_bit, ← EReal.coe_sub]
  rfl

end Cert.KernelIdeal.Payload

end
-- ==== Proof.Blocks.lean ====
/-
  Where each block sits.

  The grid is 8 x 8 x 8: point number t is (t / 64, t / 8 mod 8, t mod 8) = (row block, column block, contraction
  block).  The activation window's block at t is rows (t / 64)·1024 …, columns (t mod 8)·512 … of the 8192 x 4096
  activation matrix; both weight windows' blocks are rows (t / 8 mod 8)·512 …, columns (t mod 8)·512 … of their
  4096 x 4096 matrices; the output window's block is rows (t / 64)·1024 …, columns (t / 8 mod 8)·512 ….
  The activation matrix itself is the 8 x 1024 x 4096 input with its two leading axes merged.
-/
import proofs.«160060_j44719199486507_1_alg».proof.Proof.Gen.KernelIdeal.Frame
import proofs.«160060_j44719199486507_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.PLinear

variable (m : (ℓ : Loc nD τ sig) → Buf (Elt Ideal) ℓ)

/-- The activation matrix and the two weight matrices as the region finds them. -/
abbrev X (c : Dev nD) : S8192x4096.Idx → EReal := V m c main_v0
abbrev WP (c : Dev nD) : S4096x4096.Idx → EReal := V m c main_arg1
abbrev WN (c : Dev nD) : S4096x4096.Idx → EReal := V m c main_arg2

/-- The block indices of the four windows at point number t, decided over the grid. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = t.val % 8
    ∧ win0_3.index t (0 : Fin 2) = t.val / 64 ∧ win0_3.index t (1 : Fin 2) = t.val / 8 % 8 :=
  (by decide +kernel : ∀ t : Fin grid0.N, _)

/-- The activation block at a point, read at an entry. -/
theorem iblk0_at (c : Dev nD) (t : Fin cfg0.N) (p : Fin 1024) (k : Fin 512) :
    (iblk m c 0 t : Vec Ideal S1024x512 .f32) (ix2 p k)
      = at2 (X m c) (t.val / 64 * 1024 + p.val) (t.val % 8 * 512 + k.val) := by
  have hN : t.val < 512 := lt_of_lt_of_eq t.isLt (show cfg0.N = 512 from N_0)
  obtain ⟨e0, e1, -⟩ := idx_facts t
  rw [at2_of_lt _ _ _ (by omega) (by omega)]
  unfold iblk
  rw [View.read_apply]
  show V m c main_v0 _ = V m c main_v0 _
  congr 1
  funext a; apply Fin.ext
  match a with
  | ⟨0, _⟩ => show win0_0.index t (0 : Fin 2) * 1024 + 1 * p.val = t.val / 64 * 1024 + p.val; rw [e0]; omega
  | ⟨1, _⟩ => show win0_0.index t (1 : Fin 2) * 512 + 1 * k.val = t.val % 8 * 512 + k.val; rw [e1]; omega

/-- The positive-weight block at a point, read at an entry. -/
theorem iblk1_at (c : Dev nD) (t : Fin cfg0.N) (q : Fin 512) (k : Fin 512) :
    (iblk m c 1 t : Vec Ideal S512x512 .f32) (ix2 q k)
      = at2 (WP m c) (t.val / 8 % 8 * 512 + q.val) (t.val % 8 * 512 + k.val) := by
  have hN : t.val < 512 := lt_of_lt_of_eq t.isLt (show cfg0.N = 512 from N_0)
  obtain ⟨-, -, e0, e1, -⟩ := idx_facts t
  rw [at2_of_lt _ _ _ (by omega) (by omega)]
  unfold iblk
  rw [View.read_apply]
  show V m c main_arg1 _ = V m c main_arg1 _
  congr 1
  funext a; apply Fin.ext
  match a with
  | ⟨0, _⟩ => show win0_1.index t (0 : Fin 2) * 512 + 1 * q.val = t.val / 8 % 8 * 512 + q.val; rw [e0]; omega
  | ⟨1, _⟩ => show win0_1.index t (1 : Fin 2) * 512 + 1 * k.val = t.val % 8 * 512 + k.val; rw [e1]; omega

/-- The negative-weight block at a point, read at an entry. -/
theorem iblk2_at (c : Dev nD) (t : Fin cfg0.N) (q : Fin 512) (k : Fin 512) :
    (iblk m c 2 t : Vec Ideal S512x512 .f32) (ix2 q k)
      = at2 (WN m c) (t.val / 8 % 8 * 512 + q.val) (t.val % 8 * 512 + k.val) := by
  have hN : t.val < 512 := lt_of_lt_of_eq t.isLt (show cfg0.N = 512 from N_0)
  obtain ⟨-, -, -, -, e0, e1, -⟩ := idx_facts t
  rw [at2_of_lt _ _ _ (by omega) (by omega)]
  unfold iblk
  rw [View.read_apply]
  show V m c main_arg2 _ = V m c main_arg2 _
  congr 1
  funext a; apply Fin.ext
  match a with
  | ⟨0, _⟩ => show win0_2.index t (0 : Fin 2) * 512 + 1 * q.val = t.val / 8 % 8 * 512 + q.val; rw [e0]; omega
  | ⟨1, _⟩ => show win0_2.index t (1 : Fin 2) * 512 + 1 * k.val = t.val % 8 * 512 + k.val; rw [e1]; omega

/-- The activation matrix is the input with its two leading axes merged. -/
theorem X_eq (c : Dev nD) :
    X m c = shapeCast S8192x4096 (m ((c : Thread nD τ).loc main_arg0)) shapeCasts_S8x1024x4096_S8192x4096 := by
  show StableHlo.after hostOps0 (fun b => m (c, b)) (Proc.devRef .tc main_v0) = _
  after_results
  rfl

/-- Row b·1024 + s of the activation matrix is row (b, s) of the input. -/
theorem X_at (c : Dev nD) (b : Fin 8) (s : Fin 1024) (k : Fin 4096) :
    at2 (X m c) (b.val * 1024 + s.val) k.val = m ((c : Thread nD τ).loc main_arg0) (ix3 b s k) := by
  rw [at2_of_lt _ _ _ (by omega) k.isLt, X_eq]
  refine shapeCast_apply (s := S8x1024x4096) (t := S8192x4096) _ _ _ (ix3 b s k) ?_
  show (S8x1024x4096.rowMajor (ix3 b s k)).val = (S8192x4096.rowMajor (ix2 _ _)).val
  rw [Shape.rowMajor_val_three, Shape.rowMajor_val_two]
  rfl

end Cert.KernelIdeal.Blocks

end
-- ==== Proof.Chain.lean ====
/-
  The running block, point by point.

  Fix a row block and a column block of the output.  Over the eight consecutive points that share them the scratch
  holds, after contraction block number kb = t mod 8, the sum over the contraction blocks 0 … kb of the block
  products: it is reset to zero and gets block 0's product at the first of the eight points, and every later point
  adds its own block's product to what the point before left.  At the last of the eight the output block is the
  scratch.  This is an induction along the grid, not an enumeration of it.
-/
import proofs.«160060_j44719199486507_1_alg».proof.Proof.Pieces
import proofs.«160060_j44719199486507_1_alg».proof.Proof.Payload
import proofs.«160060_j44719199486507_1_alg».proof.Proof.Blocks

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.PLinear Cert.KernelIdeal.Blocks Cert.KernelIdeal.Payload

variable (m : (ℓ : Loc nD τ sig) → Buf (Elt Ideal) ℓ)

/-- At the first point of a contraction the scratch ends at the payload of the zero block. -/
theorem scratch_first (c : Dev nD) (t : Fin cfg0.N) (h0 : t.val % 8 = 0) :
    (outsAt0 m c t.val t.isLt).2 = k0_pay2 (F := Ideal) (iblk m c 1 t) (iblk m c 2 t) (iblk m c 0 t) (k0_pay1 (F := Ideal)) := by
  have hN : t.val < 512 := lt_of_lt_of_eq t.isLt (show cfg0.N = 512 from N_0)
  have h1 : ¬t.val % 8 = 7 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every later point it ends at the payload of what the point before left. -/
theorem scratch_next (c : Dev nD) (t : Fin cfg0.N) (h0 : ¬t.val % 8 = 0) :
    (outsAt0 m c t.val t.isLt).2 = k0_pay2 (F := Ideal) (iblk m c 1 t) (iblk m c 2 t) (iblk m c 0 t)
      (outsAt0 m c (t.val - 1) (Nat.lt_of_le_of_lt (Nat.sub_le _ _) t.isLt)).2 := by
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last point of a contraction the output block is the scratch. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

/-- Point number n's own block product at entry (p, q) of its block. -/
def blk (c : Dev nD) (n p q : ℕ) : EReal :=
  ∑ kk ∈ Finset.range 512,
    term (X m c) (WP m c) (WN m c) (n / 64 * 1024 + p) (n / 8 % 8 * 512 + q) (n % 8 * 512 + kk)

/-- The sum of the block products of the contraction blocks 0 … n mod 8 at that entry. -/
def part (c : Dev nD) (n p q : ℕ) : EReal :=
  ∑ kb ∈ Finset.range (n % 8 + 1), ∑ kk ∈ Finset.range 512,
    term (X m c) (WP m c) (WN m c) (n / 64 * 1024 + p) (n / 8 % 8 * 512 + q) (kb * 512 + kk)

/-- The payload at a point adds the point's block product to the running block. -/
theorem step (c : Dev nD) (t : Fin cfg0.N) (acc : Vec Ideal S1024x512 .f32) (p : Fin 1024) (q : Fin 512) :
    k0_pay2 (F := Ideal) (iblk m c 1 t) (iblk m c 2 t) (iblk m c 0 t) acc (ix2 p q)
      = acc (ix2 p q) + blk m c t.val p.val q.val := by
  refine (pay2_apply (iblk m c 1 t) (iblk m c 2 t) (iblk m c 0 t) acc p q).trans ?_
  refine congrArg (acc (ix2 p q) + ·) ?_
  unfold blk
  rw [Finset.sum_range]
  refine Finset.sum_congr rfl fun k _ => ?_
  unfold term
  exact congrArg₂ (· * ·) (iblk0_at m c t p k)
    (congrArg (fun r : ℝ => (r : EReal)) (congrArg₂ wq (iblk1_at m c t q k) (iblk2_at m c t q k)))

/-- THE INVARIANT: after point number n the scratch holds the partial contraction. -/
theorem scratch_eq (c : Dev nD) : ∀ (n : ℕ) (h : n < cfg0.N) (p : Fin 1024) (q : Fin 512),
    (outsAt0 m c n h).2 (ix2 p q) = part m c n p.val q.val := by
  have first : ∀ (t : Fin cfg0.N), t.val % 8 = 0 → ∀ (p : Fin 1024) (q : Fin 512),
      (outsAt0 m c t.val t.isLt).2 (ix2 p q) = part m c t.val p.val q.val := by
    intro t h0 p q
    rw [scratch_first m c t h0]
    refine (step m c t _ p q).trans ?_
    rw [pay1_apply, zero_add]
    unfold blk part
    rw [h0, Finset.sum_range_one]
  intro n
  induction n with
  | zero => intro h p q; exact first ⟨0, h⟩ rfl p q
  | succ n ih =>
    intro h p q
    have hN : n + 1 < 512 := lt_of_lt_of_eq h (show cfg0.N = 512 from N_0)
    by_cases h0 : (n + 1) % 8 = 0
    · exact first ⟨n + 1, h⟩ h0 p q
    · have key := scratch_next m c ⟨n + 1, h⟩ h0
      refine (congrFun key (ix2 p q)).trans ?_
      refine (step m c ⟨n + 1, h⟩ _ p q).trans ?_
      have ihn := ih (Nat.lt_of_succ_lt h) p q
      refine (congrArg (· + blk m c (n + 1) p.val q.val) ihn).trans ?_
      unfold blk part
      have e1 : (n + 1) / 64 = n / 64 := by omega
      have e2 : (n + 1) / 8 % 8 = n / 8 % 8 := by omega
      have e3 : (n + 1) % 8 = n % 8 + 1 := by omega
      rw [e1, e2, e3, Finset.sum_range_succ _ (n % 8 + 1)]

end Cert.KernelIdeal.Chain

end
-- ==== Proof.Layer.lean ====
/-
  The layer as one function of its three inputs, and the reference's way of computing it.

  layer x wp wn at (b, s, o) is the sum over k < 4096 of  x(b, s, k) * wq(wp(o, k), wn(o, k)).
  The reference forms the two straight-through weight matrices  w + ([w > 0] - w)  and  w + (-[w ≤ 0] - w),
  contracts the activations against each, and adds.  On REAL inputs the straight-through forms collapse to the
  values in {0, 1} and in {0, -1} and the real activation distributes over their sum, term by term; sums of sums are sums.
-/
import proofs.«160060_j44719199486507_1_alg».proof.Proof.Spec

noncomputable section

namespace Cert.PLinear

open Idealize.ShloMosaic Idealize.ShloMosaic.ValueIdx

/-- The sign-quantized linear layer. -/
def layer (x : (⟨3, ![8, 1024, 4096]⟩ : Shape).Idx → EReal) (wp wn : (⟨2, ![4096, 4096]⟩ : Shape).Idx → EReal) :
    (⟨3, ![8, 1024, 4096]⟩ : Shape).Idx → EReal := fun i =>
  ∑ k : Fin 4096, x (ix3 (i 0) (i 1) k) * ((wq (wp (ix2 (i 2) k)) (wn (ix2 (i 2) k)) : ℝ) : EReal)

/-- Two contractions against the straight-through weights, added, are one contraction against the quantized weight. -/
theorem two_sums {ι : Type*} [Fintype ι] (x w1 w2 : ι → EReal)
    (hx : ∀ k, ∃ r : ℝ, x k = r) (h1 : ∀ k, ∃ r : ℝ, w1 k = r) (h2 : ∀ k, ∃ r : ℝ, w2 k = r) :
    (∑ k, x k * (w1 k + (((bit (Ideal.cmp .ogt (w1 k) fzero) : ℝ) : EReal) - w1 k)))
      + (∑ k, x k * (w2 k + (-((bit (Ideal.cmp .ole (w2 k) fzero) : ℝ) : EReal) - w2 k)))
      = ∑ k, x k * ((wq (w1 k) (w2 k) : ℝ) : EReal) := by
  rw [← Finset.sum_add_distrib]
  refine Finset.sum_congr rfl fun k _ => ?_
  obtain ⟨r, hr⟩ := hx k
  obtain ⟨r1, hr1⟩ := h1 k
  obtain ⟨r2, hr2⟩ := h2 k
  rw [hr, hr1, hr2]
  exact term_law r r1 r2 _ _

end Cert.PLinear

end
-- ==== Proof.Final.lean ====
/-
  From blocks to the result.

  The output window writes a block back exactly at the last point of each contraction, and what it writes is the
  full contraction over all eight blocks for the rows and columns of that block.  Those 64 blocks tile the
  8192 x 4096 output matrix, so the matrix ends holding, at (r, c), the sum over the eight contraction blocks of
  the block products — the sum over all 4096 positions k of  X(r, k) * wq(WP(c, k), WN(c, k)).  The program then
  splits the row axis back into 8 x 1024: entry (b, s, o) of the result is entry (b·1024 + s, o) of the matrix,
  which in terms of the three inputs is the layer's defining sum.
-/
import proofs.«160060_j44719199486507_1_alg».proof.Proof.Chain
import proofs.«160060_j44719199486507_1_alg».proof.Proof.Layer

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.PLinear Cert.KernelIdeal.Blocks Cert.KernelIdeal.Chain

variable (m : (ℓ : Loc nD τ sig) → Buf (Elt Ideal) ℓ) (ρ : Dev nD → PrngReg)

/-- The output matrix: at (r, c) the eight block products added. -/
def mat (c : Dev nD) : S8192x4096.Idx → EReal := fun j =>
  ∑ kb ∈ Finset.range 8, ∑ kk ∈ Finset.range 512,
    term (X m c) (WP m c) (WN m c) (j 0).val (j 1).val (kb * 512 + kk)

/-- What a writing point writes back is its block of the output matrix. -/
theorem flushed_eq (c : Dev nD) (t : Fin cfg0.N) (hf : (cfg0.win 3).flush t = true) :
    (dats m 0 c).flushed 3 t = ((cfg0.win 3).blk t).view.read (Elt Ideal) (mat m c) := by
  have h7 : t.val % 8 = 7 := (flush0_3 t).mp hf
  have hN : t.val < 512 := lt_of_lt_of_eq t.isLt (show cfg0.N = 512 from N_0)
  show (cfg0.win 3).cut (grid0.coords t) ((dats m 0 c).after 3 t) = _
  rw [after0_3, out_last m c t h7]
  funext j
  obtain ⟨p, q, rfl⟩ : ∃ (p : Fin 1024) (q : Fin 512), j = ix2 p q := ⟨j 0, j 1, eq_ix2 j⟩
  show (outsAt0 m c t.val t.isLt).2 (ix2 p q) = mat m c (((cfg0.win 3).blk t).view.emb (ix2 p q))
  rw [scratch_eq m c t.val t.isLt p q]
  unfold part mat
  obtain ⟨-, -, -, -, -, -, e0, e1⟩ := idx_facts t
  have hr : ((((cfg0.win 3).blk t).view.emb (ix2 p q)) 0).val = t.val / 64 * 1024 + p.val := by
    show win0_3.index t (0 : Fin 2) * 1024 + 1 * p.val = _; rw [e0]; omega
  have hc : ((((cfg0.win 3).blk t).view.emb (ix2 p q)) 1).val = t.val / 8 % 8 * 512 + q.val := by
    show win0_3.index t (1 : Fin 2) * 512 + 1 * q.val = _; rw [e1]; omega
  rw [hr, hc, h7]

/-- An index of the matrix is in a point's block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- Every entry of the matrix lies in the block of the last point of its row and column blocks' contraction. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 512 := N_0
  obtain ⟨tv, htv⟩ : ∃ tv, tv = (i 0).val / 1024 * 64 + (i 1).val / 512 * 8 + 7 := ⟨_, rfl⟩
  have htN : tv < cfg0.N := by rw [hN]; omega
  refine ⟨⟨tv, htN⟩, (flush0_3 _).mpr (by show tv % 8 = 7; omega), ?_⟩
  rw [mem_blk]
  obtain ⟨-, -, -, -, -, -, e0, e1⟩ := idx_facts ⟨tv, htN⟩
  intro a
  match a with
  | ⟨0, _⟩ =>
    show win0_3.index ⟨tv, htN⟩ (0 : Fin 2) * 1024 ≤ (i 0).val ∧ (i 0).val < win0_3.index ⟨tv, htN⟩ (0 : Fin 2) * 1024 + 1024
    rw [e0]; show tv / 64 * 1024 ≤ (i 0).val ∧ (i 0).val < tv / 64 * 1024 + 1024; omega
  | ⟨1, _⟩ =>
    show win0_3.index ⟨tv, htN⟩ (1 : Fin 2) * 512 ≤ (i 1).val ∧ (i 1).val < win0_3.index ⟨tv, htN⟩ (1 : Fin 2) * 512 + 512
    rw [e1]; show tv / 8 % 8 * 512 ≤ (i 1).val ∧ (i 1).val < tv / 8 % 8 * 512 + 512; omega

/-- So the output array of the region ends holding the output matrix. -/
theorem final (c : Dev nD) : (dats m 0 c).arrAt 3 cfg0.N = mat m c :=
  (dats m 0 c).arrAt_eq_of_cover 3 (mat m c) (flushed_eq m c) (cover)

/-- The program's result: the output matrix with its row axis split into 8 x 1024. -/
theorem result_eq (c : Dev nD) :
    Pipeline.afterTail₀ cfgs (dats m) 0 (V0 m) [hostOps1] c main_v2
      = shapeCast S8x1024x4096 (mat m c) shapeCasts_S8192x4096_S8x1024x4096 := by
  unfold Pipeline.afterTail₀
  show StableHlo.after hostOps1 _ (Proc.devRef .tc main_v2) = _
  after_results
  have e : Pipeline.withArrays spec0 c (V0 m c) (fun w => (dats m 0 c).arrAt w cfg0.N)
      (Proc.devRef .tc (Pipeline.arrRef spec0 3)) = mat m c :=
    (Pipeline.withArrays_arr spec0 launch0.win.arr_inj c (V0 m c) (fun w => (dats m 0 c).arrAt w cfg0.N) 3).trans
      (final m c)
  funext i
  show shapeCast S8x1024x4096 (Pipeline.withArrays spec0 c (V0 m c) (fun w => (dats m 0 c).arrAt w cfg0.N)
      (Proc.devRef .tc (Pipeline.arrRef spec0 3))) shapeCasts_S8192x4096_S8x1024x4096 i = _
  rw [e]

/-- In terms of the three inputs the result is the layer. -/
theorem result_layer (c : Dev nD) :
    shapeCast S8x1024x4096 (mat m c) shapeCasts_S8192x4096_S8x1024x4096
      = layer (m ((c : Thread nD τ).loc main_arg0)) (m ((c : Thread nD τ).loc main_arg1))
          (m ((c : Thread nD τ).loc main_arg2)) := by
  funext i
  obtain ⟨b, s, o, rfl⟩ : ∃ (b : Fin 8) (s : Fin 1024) (o : Fin 4096), i = ix3 b s o := ⟨i 0, i 1, i 2, eq_ix3 i⟩
  have hb : b.val * 1024 + s.val < 8192 := by omega
  rw [shapeCast_apply (s := S8192x4096) (t := S8x1024x4096) (mat m c) _ (ix3 b s o)
    (ix2 ⟨b.val * 1024 + s.val, hb⟩ o) (by
      show (S8192x4096.rowMajor (ix2 _ _)).val = (S8x1024x4096.rowMajor (ix3 b s o)).val
      rw [Shape.rowMajor_val_three, Shape.rowMajor_val_two]; rfl)]
  unfold mat layer
  show ∑ kb ∈ Finset.range 8, ∑ kk ∈ Finset.range 512,
      term (X m c) (WP m c) (WN m c) (b.val * 1024 + s.val) o.val (kb * 512 + kk) = ∑ k : Fin 4096, _
  have hs := sum_blocks (fun k => term (X m c) (WP m c) (WN m c) (b.val * 1024 + s.val) o.val k) 8 512
  rw [← hs, show (8 * 512 : ℕ) = 4096 from rfl, Finset.sum_range]
  refine Finset.sum_congr rfl fun k _ => ?_
  unfold term
  rw [X_at m c b s k, at2_val (WP m c) o k, at2_val (WN m c) o k]
  show _ * ((wq (V m c main_arg1 (ix2 o k)) (V m c main_arg2 (ix2 o k)) : ℝ) : EReal) = _
  rw [V_main_arg1 m c, V_main_arg2 m c]

/-- The run, read: the result at the layer of the inputs, the inputs unchanged. -/
theorem run : θ_run defs (onTc (τ := τ) (main (F := Ideal))) ⟨m, fun _ => 0, ρ⟩ (fun r => ∀ c : Dev nD,
      r.2.mem ((c.tc : Thread nD τ).loc main_v2)
        = layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans
        ((result_eq m c).trans (result_layer m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.RefRead.lean ====
/-
  The reference computes the layer.

  Read one operation at a time, the reference's result at (b, s, o) is
      sum_k x(b,s,k) * (wp(o,k) + ([wp(o,k) > 0] - wp(o,k)))  +  sum_k x(b,s,k) * (wn(o,k) + (-[wn(o,k) ≤ 0] - wn(o,k))),
  which on real inputs is the layer's sum (the law `two_sums`).
-/
import proofs.«160060_j44719199486507_1_alg».proof.Defs
import proofs.«160060_j44719199486507_1_alg».proof.Proof.Gen.ReferenceIdeal.Run
import proofs.«160060_j44719199486507_1_alg».proof.Proof.Gen.ReferenceIdeal.Read
import proofs.«160060_j44719199486507_1_alg».proof.Proof.Layer
import Idealize.ShloMosaic.Lib.ValueIdx
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.PLinear

theorem ref_layer (x0 : (⟨S8x1024x4096, .f32⟩ : BufTy).Contents (Elt Ideal))
    (x1 x2 : (⟨S4096x4096, .f32⟩ : BufTy).Contents (Elt Ideal))
    (h0 : ∀ i, ∃ r : ℝ, x0 i = r) (h1 : ∀ i, ∃ r : ℝ, x1 i = r) (h2 : ∀ i, ∃ r : ℝ, x2 i = r) :
    Read.val_main_v13 (F := Ideal) x0 x1 x2 = layer x0 x1 x2 := by
  funext i
  rw [Read.val_main_v13_apply, Read.val_main_v11_apply, Read.val_main_v12_apply]
  have el : ∀ k, Read.lidx_main_v11 i k = ix3 (i 0) (i 1) k := fun k => funext fun a => by
    match a with
    | ⟨0, _⟩ => rfl
    | ⟨1, _⟩ => rfl
    | ⟨2, _⟩ => rfl
  have er : ∀ k, Read.ridx_main_v11 i k = ix2 (i 2) k := fun k => funext fun a => by
    match a with
    | ⟨0, _⟩ => rfl
    | ⟨1, _⟩ => rfl
  have el' : ∀ k, Read.lidx_main_v12 i k = ix3 (i 0) (i 1) k := el
  have er' : ∀ k, Read.ridx_main_v12 i k = ix2 (i 2) k := er
  simp only [el, er, el', er', Read.val_main_v4_apply, Read.val_main_v3_apply, Read.val_main_v2_apply,
    Read.val_main_v1_apply, Read.val_main_v0_apply, Read.val_main_cst_apply, Read.val_main_v10_apply,
    Read.val_main_v9_apply, Read.val_main_v8_apply, Read.val_main_v7_apply, Read.val_main_v6_apply,
    Read.val_main_v5_apply, Read.val_main_cst_0_apply]
  exact two_sums (fun k => x0 (ix3 (i 0) (i 1) k)) (fun k => x1 (ix2 (i 2) k)) (fun k => x2 (ix2 (i 2) k))
    (fun k => h0 _) (fun k => h1 _) (fun k => h2 _)

end Cert.ReferenceIdeal.RefRead

end
-- ==== Proof.Finite.lean ====
/-
  The precondition, read: every entry of the three inputs is a real number.

  The stated precondition is  all(|x| < +inf) ∧ all(|w_pos| < +inf) ∧ all(|w_neg| < +inf)  as a single bit.
  The conjunction being 1 makes each conjunct 1, an all-reduction by "and" being 1 makes every compared entry 1,
  and an extended real whose absolute value lies strictly below +inf is neither infinity.
-/
import proofs.«160060_j44719199486507_1_alg».proof.Pre_finite_inputs
import proofs.«160060_j44719199486507_1_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Pre_finite_inputs.Finite

open Idealize.ShloMosaic Cert.Pre_finite_inputs

instance : Subsingleton S_.Idx := ⟨fun a b => funext fun d => d.elim0⟩

/-- An extended real with |x| < +inf is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

variable [Facts]

theorem all_real (x0 : FVec Ideal S8x1024x4096 .f32) (x1 x2 : FVec Ideal S4096x4096 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h' := congrFun h ValueIdx.ix0
  dsimp only [fn] at h'
  obtain ⟨h12, h3⟩ := IntOp.andi_eq_one.1 h'
  obtain ⟨h1, h2⟩ := IntOp.andi_eq_one.1 h12
  have elt : ∀ {s : Shape} (x : FVec Ideal s .f32) (hb : S_.BroadcastsInDim s (![] : Fin 0 → Fin s.rank)) (i : s.Idx),
      cmpf .olt (Host.absf x) (broadcastInDim s ![] hb (constant (F := Ideal) S_ .f32 0x7F800000#32)) i = 1#1 →
      ∃ r : ℝ, x i = r := by
    intro s x hb i hi
    refine real_of_abs_lt (x i) ?_
    rw [ValueIdx.cmpf_apply, broadcastInDim_apply _ hb _ i ValueIdx.ix0 (fun a => a.elim0)] at hi
    exact hi
  exact ⟨fun i => elt x0 _ i (Host.reduce_andi_all _ _ _ _ _ h1 i),
    fun i => elt x1 _ i (Host.reduce_andi_all _ _ _ _ _ h2 i),
    fun i => elt x2 _ i (Host.reduce_andi_all _ _ _ _ _ h3 i)⟩

end Cert.Pre_finite_inputs.Finite

end
-- ==== Proof.lean ====
/-
  A sign-quantized linear layer: the tiled accumulator kernel against the two-contraction reference.

  The layer is  y(b, s, o) = sum over k < 4096 of  x(b, s, k) * wq(w_pos(o, k), w_neg(o, k)),  with the quantized
  weight  wq a b = [a > 0] - [b ≤ 0]  in {-1, 0, 1}.

  The kernel views x as an 8192 x 4096 matrix and walks an 8 x 8 x 8 grid of (row block, column block, contraction
  block).  For a fixed row and column block it resets a 1024 x 512 running block at contraction block 0, adds each
  contraction block's 1024 x 512 x 512 product of the activations with the quantized weights, and copies the
  running block to the output at contraction block 7; the 64 output blocks tile the 8192 x 4096 result, whose row
  axis is then split back into 8 x 1024.  Over the extended reals the order and grouping of a sum are immaterial,
  so the result is the layer (modules Pieces, Payload, Blocks, Chain, Final).

  The reference builds the straight-through weights  w + ([w > 0] - w)  and  w + (-[w ≤ 0] - w),  contracts the
  activations against each and adds.  For REAL inputs — the precondition (module Finite) — w + (v - w) = v and the
  real activation distributes over the sum of the two quantized parts, so the reference is the layer too (modules
  Layer, RefRead).  The idealization rewrote nothing, so its preservation claim is empty.
-/
import proofs.«160060_j44719199486507_1_alg».proof.Defs
import proofs.«160060_j44719199486507_1_alg».proof.Proof.Gen.Kernel
import proofs.«160060_j44719199486507_1_alg».proof.Proof.Gen.Kernel.Skeleton
import proofs.«160060_j44719199486507_1_alg».proof.Proof.Gen.Kernel.Launch
import proofs.«160060_j44719199486507_1_alg».proof.Proof.Gen.Kernel.Points
import proofs.«160060_j44719199486507_1_alg».proof.Proof.Gen.Kernel.Frame
import proofs.«160060_j44719199486507_1_alg».proof.Proof.Gen.KernelIdeal
import proofs.«160060_j44719199486507_1_alg».proof.Proof.Gen.KernelIdeal.Skeleton
import proofs.«160060_j44719199486507_1_alg».proof.Proof.Gen.KernelIdeal.Launch
import proofs.«160060_j44719199486507_1_alg».proof.Proof.Gen.KernelIdeal.Points
import proofs.«160060_j44719199486507_1_alg».proof.Proof.Gen.KernelIdeal.Frame
import proofs.«160060_j44719199486507_1_alg».proof.Proof.Gen.ReferenceIdeal
import proofs.«160060_j44719199486507_1_alg».proof.Proof.Gen.ReferenceIdeal.Run
import proofs.«160060_j44719199486507_1_alg».proof.Proof.Gen.ReferenceIdeal.Read
import proofs.«160060_j44719199486507_1_alg».proof.Proof.Gen.Pre_finite_inputs
import proofs.«160060_j44719199486507_1_alg».proof.Proof.Final
import proofs.«160060_j44719199486507_1_alg».proof.Proof.RefRead
import proofs.«160060_j44719199486507_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of inputs that agree and are real. -/
theorem algebraic : Cert.algebraic_KernelIdeal_ReferenceIdeal := by
  intro m ρ m' ρ' hpre hagree
  refine ⟨fun c => Cert.PLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨f0, f1, f2⟩ := Cert.Pre_finite_inputs.Finite.all_real _ _ _ (hpre c)
  rw [(h c).1, Cert.ReferenceIdeal.Read.val_main_v13_eq, (hagree c).1, (hagree c).2.1, (hagree c).2.2]
  exact Cert.ReferenceIdeal.RefRead.ref_layer _ _ _ f0 f1 f2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
